-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S33554432 : Shape := ⟨1, ![33554432]⟩
abbrev S2x33554432 : Shape := ⟨2, ![2, 33554432]⟩
abbrev S8192 : Shape := ⟨1, ![8192]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S33554432 : S_.BroadcastsInDim S33554432 (![] : Fin 0 → Fin S33554432.rank)
  reducesTo_S33554432_S_d0 : S33554432.ReducesTo [0] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S32x8192 .f32) (main_arg1 : FVec F S33554432 .f32) (main_arg2 : IVec S2x33554432 32) (main_arg3 : FVec F S8192 .f32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  let main_v9 : FVec F S8192 .f32 := Host.absf main_arg3
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S32x8192 : Shape := ⟨2, ![32, 8192]⟩
abbrev S33554432 : Shape := ⟨1, ![33554432]⟩
abbrev S2x33554432 : Shape := ⟨2, ![2, 33554432]⟩
abbrev S8192 : Shape := ⟨1, ![8192]⟩
abbrev S_ : Shape := ⟨0, ![]⟩
abbrev S8192x8192 : Shape := ⟨2, ![8192, 8192]⟩
abbrev S1x33554432 : Shape := ⟨2, ![1, 33554432]⟩
abbrev S33554432x1 : Shape := ⟨2, ![33554432, 1]⟩
abbrev S33554432x2 : Shape := ⟨2, ![33554432, 2]⟩
abbrev S1x8192 : Shape := ⟨2, ![1, 8192]⟩
abbrev S256x8192 : Shape := ⟨2, ![256, 8192]⟩
abbrev S1x256 : Shape := ⟨2, ![1, 256]⟩
abbrev S32x256 : Shape := ⟨2, ![32, 256]⟩

abbrev nBuf : Space → Nat
  | .hbm => 31
  | .vmem => 7
  | .smem => 0
  | _ => 0

abbrev bufTy : (tb : Table) → Fin (tcTables nBuf tb) → BufTy
  | .hbm, ⟨0, _⟩ => ⟨S32x8192, .f32⟩
  | .hbm, ⟨1, _⟩ => ⟨S33554432, .f32⟩
  | .hbm, ⟨2, _⟩ => ⟨S2x33554432, .i32⟩
  | .hbm, ⟨3, _⟩ => ⟨S8192, .f32⟩
  | .hbm, ⟨4, _⟩ => ⟨S_, .f32⟩
  | .hbm, ⟨5, _⟩ => ⟨S8192x8192, .f32⟩
  | .hbm, ⟨6, _⟩ => ⟨S1x33554432, .i32⟩
  | .hbm, ⟨7, _⟩ => ⟨S33554432, .i32⟩
  | .hbm, ⟨8, _⟩ => ⟨S1x33554432, .i32⟩
  | .hbm, ⟨9, _⟩ => ⟨S33554432, .i32⟩
  | .hbm, ⟨10, _⟩ => ⟨S_, .i32⟩
  | .hbm, ⟨11, _⟩ => ⟨S33554432, .i32⟩
  | .hbm, ⟨12, _⟩ => ⟨S33554432, .i1⟩
  | .hbm, ⟨13, _⟩ => ⟨S_, .i32⟩
  | .hbm, ⟨14, _⟩ => ⟨S33554432, .i32⟩
  | .hbm, ⟨15, _⟩ => ⟨S33554432, .i32⟩
  | .hbm, ⟨16, _⟩ => ⟨S33554432, .i32⟩
  | .hbm, ⟨17, _⟩ => ⟨S_, .i32⟩
  | .hbm, ⟨18, _⟩ => ⟨S33554432, .i32⟩
  | .hbm, ⟨19, _⟩ => ⟨S33554432, .i1⟩
  | .hbm, ⟨20, _⟩ => ⟨S_, .i32⟩
  | .hbm, ⟨21, _⟩ => ⟨S33554432, .i32⟩
  | .hbm, ⟨22, _⟩ => ⟨S33554432, .i32⟩
  | .hbm, ⟨23, _⟩ => ⟨S33554432, .i32⟩
  | .hbm, ⟨24, _⟩ => ⟨S33554432x1, .i32⟩
  | .hbm, ⟨25, _⟩ => ⟨S33554432x1, .i32⟩
  | .hbm, ⟨26, _⟩ => ⟨S33554432x2, .i32⟩
  | .hbm, ⟨27, _⟩ => ⟨S8192x8192, .f32⟩
  | .hbm, ⟨28, _⟩ => ⟨S32x8192, .bf16⟩
  | .hbm, ⟨29, _⟩ => ⟨S1x8192, .f32⟩
  | .hbm, ⟨30, _⟩ => ⟨S32x8192, .f32⟩
  | .local _ .vmem, ⟨0, _⟩ => ⟨S32x8192, .bf16⟩
  | .local _ .vmem, ⟨1, _⟩ => ⟨S256x8192, .f32⟩
  | .local _ .vmem, ⟨2, _⟩ => ⟨S256x8192, .f32⟩
  | .local _ .vmem, ⟨3, _⟩ => ⟨S1x256, .f32⟩
  | .local _ .vmem, ⟨4, _⟩ => ⟨S1x256, .f32⟩
  | .local _ .vmem, ⟨5, _⟩ => ⟨S32x256, .f32⟩
  | .local _ .vmem, ⟨6, _⟩ => ⟨S32x256, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8192x8192 : S_.BroadcastsInDim S8192x8192 (![] : Fin 0 → Fin S8192x8192.rank)
  slices_S2x33554432_S1x33554432_0_0 : S2x33554432.Slices ![0, 0] S1x33554432
  shapeCasts_S1x33554432_S33554432 : S1x33554432.ShapeCasts S33554432
  slices_S2x33554432_S1x33554432_1_0 : S2x33554432.Slices ![1, 0] S1x33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  concatenates_S33554432x1_S33554432x1_S33554432x2_d1 : Shape.Concatenates [S33554432x1, S33554432x1] S33554432x2 1
  bitsLt_bf16_f32 : FTy.bits .bf16 < FTy.bits .f32
  shapeCasts_S8192_S1x8192 : S8192.ShapeCasts S1x8192
  inb_S32x8192_S32x8192_0_0 : ∀ a, (![0, 0] : Fin 2 → Nat) a + S32x8192.size a ≤ S32x8192.size a
  h_S32x8192 : 0 < S32x8192.numel
  shapeCasts_S32x8192_S32x8192 : S32x8192.ShapeCasts S32x8192
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  inb_S32x256_S32x256_0_0 : ∀ a, (![0, 0] : Fin 2 → Nat) a + S32x256.size a ≤ S32x256.size a
  h_S32x256 : 0 < S32x256.numel
  scatter_S8192x8192_S33554432x2_S33554432_n_01_01_1_wf : ScatterDims.WF S8192x8192 S33554432x2 S33554432 [] [0, 1] [0, 1] 1
  dot_S32x8192_S256x8192_S32x256_1_1_0_0_n_n_wf : DotDims.WF S32x8192 S256x8192 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S32x8192.size a
  hwx0_0 : ∀ i : grid0.Coords, EltTy.bits .bf16 = 32 ∨ (Rect.block (s := S32x8192) S32x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x8192.size a
  hwx0_2 : ∀ i : grid0.Coords, EltTy.bits .f32 = 32 ∨ (Rect.block (s := S1x8192) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x8192.size a
  hwx0_3 : ∀ i : grid0.Coords, EltTy.bits .f32 = 32 ∨ (Rect.block (s := S32x8192) S32x256.size (cc0_transform_3 i) (hinb0_3 i)).WholeWords (EltTy.packing .f32)

variable [Facts₀]

def scatter_S8192x8192_S33554432x2_S33554432_n_01_01_1 : ScatterDims S8192x8192 S33554432x2 S33554432 where
  updateWindowDims := []
  insertedWindowDims := [0, 1]
  scatterDimsToOperandDims := [0, 1]
  indexVectorDim := 1
  wf := scatter_S8192x8192_S33554432x2_S33554432_n_01_01_1_wf
def dot_S32x8192_S256x8192_S32x256_1_1_0_0_n_n : DotDims S32x8192 S256x8192 S32x256 where
  lhsContracting := [1]
  rhsContracting := [1]
  lhsNonContracting := [0]
  rhsNonContracting := [0]
  lhsBatch := []
  rhsBatch := []
  wf := dot_S32x8192_S256x8192_S32x256_1_1_0_0_n_n_wf

abbrev win0_0 : Pipeline.Window sig grid0 :=
  Pipeline.Window.ofSpec (Memref.whole main_v19) S32x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S32x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x8192 : Shape := ⟨2, ![32, 8192]⟩
abbrev S33554432 : Shape := ⟨1, ![33554432]⟩
abbrev S2x33554432 : Shape := ⟨2, ![2, 33554432]⟩
abbrev S8192 : Shape := ⟨1, ![8192]⟩
abbrev S_ : Shape := ⟨0, ![]⟩
abbrev S8192x8192 : Shape := ⟨2, ![8192, 8192]⟩
abbrev S1x33554432 : Shape := ⟨2, ![1, 33554432]⟩
abbrev S33554432x1 : Shape := ⟨2, ![33554432, 1]⟩
abbrev S33554432x2 : Shape := ⟨2, ![33554432, 2]⟩
abbrev S1x8192 : Shape := ⟨2, ![1, 8192]⟩

abbrev nBuf : Space → Nat
  | .hbm => 32
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S33554432, .f32⟩
  | .hbm, ⟨2, _⟩ => ⟨S2x33554432, .i32⟩
  | .hbm, ⟨3, _⟩ => ⟨S8192, .f32⟩
  | .hbm, ⟨4, _⟩ => ⟨S_, .f32⟩
  | .hbm, ⟨5, _⟩ => ⟨S8192x8192, .f32⟩
  | .hbm, ⟨6, _⟩ => ⟨S1x33554432, .i32⟩
  | .hbm, ⟨7, _⟩ => ⟨S33554432, .i32⟩
  | .hbm, ⟨8, _⟩ => ⟨S1x33554432, .i32⟩
  | .hbm, ⟨9, _⟩ => ⟨S33554432, .i32⟩
  | .hbm, ⟨10, _⟩ => ⟨S_, .i32⟩
  | .hbm, ⟨11, _⟩ => ⟨S33554432, .i32⟩
  | .hbm, ⟨12, _⟩ => ⟨S33554432, .i1⟩
  | .hbm, ⟨13, _⟩ => ⟨S_, .i32⟩
  | .hbm, ⟨14, _⟩ => ⟨S33554432, .i32⟩
  | .hbm, ⟨15, _⟩ => ⟨S33554432, .i32⟩
  | .hbm, ⟨16, _⟩ => ⟨S33554432, .i32⟩
  | .hbm, ⟨17, _⟩ => ⟨S_, .i32⟩
  | .hbm, ⟨18, _⟩ => ⟨S33554432, .i32⟩
  | .hbm, ⟨19, _⟩ => ⟨S33554432, .i1⟩
  | .hbm, ⟨20, _⟩ => ⟨S_, .i32⟩
  | .hbm, ⟨21, _⟩ => ⟨S33554432, .i32⟩
  | .hbm, ⟨22, _⟩ => ⟨S33554432, .i32⟩
  | .hbm, ⟨23, _⟩ => ⟨S33554432, .i32⟩
  | .hbm, ⟨24, _⟩ => ⟨S33554432x1, .i32⟩
  | .hbm, ⟨25, _⟩ => ⟨S33554432x1, .i32⟩
  | .hbm, ⟨26, _⟩ => ⟨S33554432x2, .i32⟩
  | .hbm, ⟨27, _⟩ => ⟨S8192x8192, .f32⟩
  | .hbm, ⟨28, _⟩ => ⟨S32x8192, .f32⟩
  | .hbm, ⟨29, _⟩ => ⟨S1x8192, .f32⟩
  | .hbm, ⟨30, _⟩ => ⟨S32x8192, .f32⟩
  | .hbm, ⟨31, _⟩ => ⟨S32x8192, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x33554432_S1x33554432_0_0 : S2x33554432.Slices ![0, 0] S1x33554432
  shapeCasts_S1x33554432_S33554432 : S1x33554432.ShapeCasts S33554432
  slices_S2x33554432_S1x33554432_1_0 : S2x33554432.Slices ![1, 0] S1x33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  concatenates_S33554432x1_S33554432x1_S33554432x2_d1 : Shape.Concatenates [S33554432x1, S33554432x1] S33554432x2 1
  bcast_S8192_S1x8192_1 : S8192.BroadcastsInDim S1x8192 (![1] : Fin 1 → Fin S1x8192.rank)
  bcast_S1x8192_S32x8192_0_1 : S1x8192.BroadcastsInDim S32x8192 (![0, 1] : Fin 2 → Fin S32x8192.rank)
  scatter_S8192x8192_S33554432x2_S33554432_n_01_01_1_wf : ScatterDims.WF S8192x8192 S33554432x2 S33554432 [] [0, 1] [0, 1] 1
  dot_S32x8192_S8192x8192_S32x8192_1_1_0_0_n_n_wf : DotDims.WF S32x8192 S8192x8192 S32x8192 [1] [1] [0] [0] [] []

variable [Facts₀]

def scatter_S8192x8192_S33554432x2_S33554432_n_01_01_1 : ScatterDims S8192x8192 S33554432x2 S33554432 where
  updateWindowDims := []
  insertedWindowDims := [0, 1]
  scatterDimsToOperandDims := [0, 1]
  indexVectorDim := 1
  wf := scatter_S8192x8192_S33554432x2_S33554432_n_01_01_1_wf
def dot_S32x8192_S8192x8192_S32x8192_1_1_0_0_n_n : DotDims S32x8192 S8192x8192 S32x8192 where
  lhsContracting := [1]
  rhsContracting := [1]
  lhsNonContracting := [0]
  rhsNonContracting := [0]
  lhsBatch := []
  rhsBatch := []
  wf := dot_S32x8192_S8192x8192_S32x8192_1_1_0_0_n_n_wf

class Facts : Prop extends Facts₀ where

variable [Facts]
-- ==== Proof.DenseLayer.lean ====
/-
  The function both programs compute, stated once over the extended reals.

  A dense (affine) layer with 8192 input features and 8192 output features applied to a batch of 32 rows:
  for a batch row `p` and an output feature `q`,

      out[p, q] = (∑ k < 8192, x[p, k] · w[q, k]) + b[q],

  the weight matrix `w` stored one ROW per output feature, so that the contraction runs over the LAST axis of
  both `x` and `w`. Nothing is assumed of `w`: the two programs build it by the same scatter of the sparse
  entries, and the layer is the same function of whatever matrix that scatter yields.
-/
import Idealize.ShloMosaic.PureOps.Ideal
import Idealize.ShloMosaic.Lib.ValueIdx

noncomputable section

open scoped BigOperators

namespace Cert.DenseLayer

open Idealize.ShloMosaic Idealize.ShloMosaic.ValueIdx

/-- One entry of the layer's output: the inner product of batch row `p` with weight row `q`, plus the bias of
    feature `q`. -/
def entry (x : (⟨2, ![32, 8192]⟩ : Shape).Idx → EReal) (w : (⟨2, ![8192, 8192]⟩ : Shape).Idx → EReal)
    (b : (⟨1, ![8192]⟩ : Shape).Idx → EReal) (p : Fin 32) (q : Fin 8192) : EReal :=
  (∑ k : Fin 8192, x (ix2 p k) * w (ix2 q k)) + b (ix1 q)

/-- The entry, written out. -/
theorem entry_def (x : (⟨2, ![32, 8192]⟩ : Shape).Idx → EReal) (w : (⟨2, ![8192, 8192]⟩ : Shape).Idx → EReal)
    (b : (⟨1, ![8192]⟩ : Shape).Idx → EReal) (p : Fin 32) (q : Fin 8192) :
    entry x w b p q = (∑ k : Fin 8192, x (ix2 p k) * w (ix2 q k)) + b (ix1 q) := rfl

/-- The layer's whole output array, index by index. -/
def affine (x : (⟨2, ![32, 8192]⟩ : Shape).Idx → EReal) (w : (⟨2, ![8192, 8192]⟩ : Shape).Idx → EReal)
    (b : (⟨1, ![8192]⟩ : Shape).Idx → EReal) : (⟨2, ![32, 8192]⟩ : Shape).Idx → EReal :=
  fun i => entry x w b (i 0) (i 1)

/-- Read at an index given by its coordinates. -/
theorem affine_ix2 (x : (⟨2, ![32, 8192]⟩ : Shape).Idx → EReal) (w : (⟨2, ![8192, 8192]⟩ : Shape).Idx → EReal)
    (b : (⟨1, ![8192]⟩ : Shape).Idx → EReal) (p : Fin 32) (q : Fin 8192) :
    affine x w b (ix2 p q) = entry x w b p q := rfl

end Cert.DenseLayer

end
-- ==== Proof.StripValue.lean ====
/-
  What the kernel body computes at one grid point, read at an index.

  At a grid point the body holds the whole activation block `a` ([32, 8192]), one horizontal strip `s` of 256
  rows of the weight matrix ([256, 8192]) and the matching 256 bias entries as one row `β` ([1, 256]). It
  multiplies `a` by the strip on the matrix unit, contracting the last axis of both into a zero accumulator, and
  adds the bias row to every batch row. Over the extended reals the change of float format on the way into the
  matrix unit is the identity and the zero accumulator is the real `0`, so the stored value at `(p, q)` is

      (∑ k < 8192, a[p, k] · s[q, k]) + β[0, q].
-/
import proofs.«177614_j17789754540032_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Strip

open Cert.KernelIdeal Cert.KernelIdeal.Gen Idealize.ShloMosaic Idealize.ShloMosaic.ValueIdx

/-- The left operand's index of the matrix product at output `(p, q)` and contraction coordinate `k` is `(p, k)`:
    its first coordinate is the output's row. -/
theorem lhs_row (i : S32x256.Idx) (c : dot_S32x8192_S256x8192_S32x256_1_1_0_0_n_n.contr.Idx) :
    (dot_S32x8192_S256x8192_S32x256_1_1_0_0_n_n.lhsIdx i c 0).val = (i 0).val := by
  unfold DotDims.lhsIdx
  rw [dif_neg (show ¬(0 : Fin S32x8192.rank) ∈ dot_S32x8192_S256x8192_S32x256_1_1_0_0_n_n.lhsBatch by decide),
    dif_pos (show (0 : Fin S32x8192.rank) ∈ dot_S32x8192_S256x8192_S32x256_1_1_0_0_n_n.lhsNonContracting by decide)]
  rfl

/-- … and its second the contraction coordinate. -/
theorem lhs_col (i : S32x256.Idx) (c : dot_S32x8192_S256x8192_S32x256_1_1_0_0_n_n.contr.Idx) :
    (dot_S32x8192_S256x8192_S32x256_1_1_0_0_n_n.lhsIdx i c 1).val = (c ⟨0, by decide⟩).val :=
  dot_S32x8192_S256x8192_S32x256_1_1_0_0_n_n.lhsIdx_val_of_single rfl i c

/-- The right operand's index is `(q, k)`: its first coordinate is the output's COLUMN (the strip is stored one row
    per output feature), -/
theorem rhs_row (i : S32x256.Idx) (c : dot_S32x8192_S256x8192_S32x256_1_1_0_0_n_n.contr.Idx) :
    (dot_S32x8192_S256x8192_S32x256_1_1_0_0_n_n.rhsIdx i c 0).val = (i 1).val := by
  unfold DotDims.rhsIdx
  rw [dif_neg (show ¬(0 : Fin S256x8192.rank) ∈ dot_S32x8192_S256x8192_S32x256_1_1_0_0_n_n.rhsBatch by decide),
    dif_pos (show (0 : Fin S256x8192.rank) ∈ dot_S32x8192_S256x8192_S32x256_1_1_0_0_n_n.rhsNonContracting by decide)]
  rfl

/-- … and its second the contraction coordinate. -/
theorem rhs_col (i : S32x256.Idx) (c : dot_S32x8192_S256x8192_S32x256_1_1_0_0_n_n.contr.Idx) :
    (dot_S32x8192_S256x8192_S32x256_1_1_0_0_n_n.rhsIdx i c 1).val = (c ⟨0, by decide⟩).val :=
  dot_S32x8192_S256x8192_S32x256_1_1_0_0_n_n.rhsIdx_val_of_single rfl i c

/-- The matrix product into the zero accumulator, at `(p, q)`: the inner product of row `p` of the left operand
    with row `q` of the right one. -/
theorem product_at (a : FVec Ideal S32x8192 .bf16) (s : FVec Ideal S256x8192 .bf16) (p : Fin 32) (q : Fin 256) :
    matmul dot_S32x8192_S256x8192_S32x256_1_1_0_0_n_n none a s (constant (F := Ideal) S32x256 .f32 0x00000000#32) (ix2 p q)
      = ∑ k : Fin 8192, a (ix2 p k) * s (ix2 q k) := by
  simp only [matmul]
  rw [Ideal.matmul_constant_zero_apply,
    ← Equiv.sum_comp (contrEquiv1 dot_S32x8192_S256x8192_S32x256_1_1_0_0_n_n 8192 rfl rfl).symm]
  refine Finset.sum_congr rfl fun k _ => ?_
  have hk := contrEquiv1_symm_val dot_S32x8192_S256x8192_S32x256_1_1_0_0_n_n 8192 rfl rfl k
  have el : dot_S32x8192_S256x8192_S32x256_1_1_0_0_n_n.lhsIdx (ix2 p q)
      ((contrEquiv1 dot_S32x8192_S256x8192_S32x256_1_1_0_0_n_n 8192 rfl rfl).symm k) = ix2 p k :=
    funext fun ax => Fin.ext (by
      match ax with
      | ⟨0, _⟩ => exact lhs_row _ _
      | ⟨1, _⟩ => exact (lhs_col _ _).trans hk)
  have er : dot_S32x8192_S256x8192_S32x256_1_1_0_0_n_n.rhsIdx (ix2 p q)
      ((contrEquiv1 dot_S32x8192_S256x8192_S32x256_1_1_0_0_n_n 8192 rfl rfl).symm k) = ix2 q k :=
    funext fun ax => Fin.ext (by
      match ax with
      | ⟨0, _⟩ => exact rhs_row _ _
      | ⟨1, _⟩ => exact (rhs_col _ _).trans hk)
  rw [el, er]

/-- The value the body stores, at `(p, q)`: the inner product of activation row `p` with strip row `q`, plus the
    bias row's entry `q`. -/
theorem stored_at (a : FVec Ideal S32x8192 .bf16) (s : FVec Ideal S256x8192 .f32) (β : FVec Ideal S1x256 .f32)
    (p : Fin 32) (q : Fin 256) :
    k0_pay1 (F := Ideal) a s β (ix2 p q) = (∑ k : Fin 8192, a (ix2 p k) * s (ix2 q k)) + β (ix2 (0 : Fin 1) q) := by
  unfold k0_pay1
  simp only [shapeCast_self]
  rw [addf_apply, product_at, broadcastTo_1b_ab_apply]
  rfl

/-- The same at an index known by its coordinates. -/
theorem stored_of_coords (a : FVec Ideal S32x8192 .bf16) (s : FVec Ideal S256x8192 .f32) (β : FVec Ideal S1x256 .f32)
    (j : S32x256.Idx) (p : Fin 32) (q : Fin 256) (hp : (j 0).val = p.val) (hq : (j 1).val = q.val) :
    k0_pay1 (F := Ideal) a s β j = (∑ k : Fin 8192, a (ix2 p k) * s (ix2 q k)) + β (ix2 (0 : Fin 1) q) := by
  have hj : j = ix2 p q := funext fun ax => Fin.ext (by
    match ax with
    | ⟨0, _⟩ => exact hp
    | ⟨1, _⟩ => exact hq)
  rw [hj]
  exact stored_at a s β p q

end Cert.KernelIdeal.Strip

end
-- ==== Proof.RegionEntry.lean ====
/-
  What the kernel's one region finds in the three arrays it reads, as functions of the program's arguments.

  Before the region the program (i) rebuilds the dense 8192 × 8192 weight matrix from its sparse entries: the two
  rows of the index array are the entries' row and column numbers, a negative number counts from the end (8192 is
  added to it), the pairs are laid side by side, and every value is ADDED at its pair's position into a matrix of
  zeros, duplicates summing; (ii) changes the activations' float format, which over the extended reals is the
  identity; (iii) lays the 8192 bias entries out as one row. The weight matrix is kept as ONE named function of the
  values and the index array and is never opened: the reference builds the same matrix by the same operations.
-/
import proofs.«177614_j17789754540032_2_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]

/-- Row `r` (0: the entries' row numbers; 1: their column numbers) of the index array, as a flat list, is cut
    out below; a negative number `v` stands for `v + 8192`. -/
def fromEnd (v : (⟨S33554432, .i32⟩ : BufTy).Contents (Elt F)) : (⟨S33554432, .i32⟩ : BufTy).Contents (Elt F) :=
  select (cmpi .slt v (broadcastInDim S33554432 ![] bcast_S_S33554432 (constantI S_ 32 0#32)))
    (addi v (broadcastInDim S33554432 ![] bcast_S_S33554432 (constantI S_ 32 8192#32))) v

/-- The entries' positions: entry `e`'s (row, column) pair as row `e` of a [33554432, 2] array. -/
def positions (idx : (⟨S2x33554432, .i32⟩ : BufTy).Contents (Elt F)) : (⟨S33554432x2, .i32⟩ : BufTy).Contents (Elt F) :=
  concatenate S33554432x2 1
    [⟨S33554432x1, broadcastInDim S33554432x1 ![0] bcast_S33554432_S33554432x1_0
        (fromEnd (F := F) (shapeCast _ (extractStridedSlice S1x33554432 ![0, 0] idx slices_S2x33554432_S1x33554432_0_0) shapeCasts_S1x33554432_S33554432))⟩,
     ⟨S33554432x1, broadcastInDim S33554432x1 ![0] bcast_S33554432_S33554432x1_0
        (fromEnd (F := F) (shapeCast _ (extractStridedSlice S1x33554432 ![1, 0] idx slices_S2x33554432_S1x33554432_1_0) shapeCasts_S1x33554432_S33554432))⟩]
    concatenates_S33554432x1_S33554432x1_S33554432x2_d1

/-- THE WEIGHT MATRIX: the values added at their positions into zeros. -/
def weight (vals : (⟨S33554432, .f32⟩ : BufTy).Contents (Elt F)) (idx : (⟨S2x33554432, .i32⟩ : BufTy).Contents (Elt F)) :
    (⟨S8192x8192, .f32⟩ : BufTy).Contents (Elt F) :=
  Host.scatterAdd scatter_S8192x8192_S33554432x2_S33554432_n_01_01_1
    (broadcastInDim S8192x8192 ![] bcast_S_S8192x8192 (constant (F := F) S_ .f32 0x00000000#32)) (positions (F := F) idx) vals

variable (m : (ℓ : Loc nD τ sig) → Buf (Elt F) ℓ)

set_option maxHeartbeats 2000000 in
/-- The region finds the weight matrix in the array its second window reads. -/
theorem finds_weight (c : Dev nD) :
    (V m c main_v18 : S8192x8192.Idx → Elt F .f32)
      = weight (F := F) (m ((c : Thread nD τ).loc main_arg1)) (m ((c : Thread nD τ).loc main_arg2)) := by
  dsimp only [V, hostOps0]
  after_results <;> rfl

/-- The region finds the activations, their format changed, in the array its first window reads. -/
theorem finds_activations (c : Dev nD) :
    (V m c main_v19 : S32x8192.Idx → Elt F .bf16)
      = truncf .bf16 (m ((c : Thread nD τ).loc main_arg0) : S32x8192.Idx → Elt F .f32) bitsLt_bf16_f32 := by
  dsimp only [V, hostOps0]
  after_results <;> rfl

/-- The region finds the bias as one row in the array its third window reads. -/
theorem finds_bias (c : Dev nD) :
    (V m c main_v20 : S1x8192.Idx → Elt F .f32)
      = shapeCast S1x8192 (m ((c : Thread nD τ).loc main_arg3) : S8192.Idx → Elt F .f32) shapeCasts_S8192_S1x8192 := by
  dsimp only [V, hostOps0]
  after_results <;> rfl

end Cert.KernelIdeal.Entry

end
-- ==== Proof.KernelLayer.lean ====
/-
  The kernel's result array is the dense layer of the weight matrix the region finds.

  The grid has 32 points. Point `t` reads the whole activation array, rows `256 t … 256 t + 255` of the weight
  matrix (a horizontal strip: one row per output feature) and entries `256 t … 256 t + 255` of the bias row, and
  writes back columns `256 t … 256 t + 255` of the result. So what it writes at `(p, q)` of its block is the layer's
  entry `(p, 256 t + q)`: the strips are restrictions of ONE whole-array function, the 32 column blocks tile the
  result, and the result array ends holding that function.
-/
import proofs.«177614_j17789754540032_2_alg».proof.Proof.Gen.KernelIdeal.Value
import proofs.«177614_j17789754540032_2_alg».proof.Proof.DenseLayer
import proofs.«177614_j17789754540032_2_alg».proof.Proof.StripValue
import proofs.«177614_j17789754540032_2_alg».proof.Proof.RegionEntry
import Idealize.ShloMosaic.Lib.Pipeline.Value
import Idealize.ShloMosaic.Lib.ValueIdx
import Idealize.ShloMosaic.Lib.ValueLayout

noncomputable section

open scoped BigOperators

namespace Cert.KernelIdeal.Layer

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Which block each window reads or writes at grid point `t`: the activations always block (0, 0); the weight
    matrix its `t`-th strip of rows; the bias row and the result their `t`-th block of columns. -/
theorem block_of_point : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The activation block at any point is the whole activation argument (its float format changed, which is the
    identity here). -/
theorem activations_at (c : Dev nD) (t : Fin cfg0.N) (p : Fin 32) (k : Fin 8192) :
    (iblk m c 0 t : FVec Ideal S32x8192 .bf16) (ix2 p k)
      = (m ((c : Thread nD τ).loc main_arg0) : S32x8192.Idx → Elt Ideal .f32) (ix2 p k) := by
  obtain ⟨e0, e1, -⟩ := block_of_point t
  unfold iblk
  rw [View.read_apply]
  show (V m c main_v19 : S32x8192.Idx → Elt Ideal .bf16) _ = _
  rw [Entry.finds_activations]
  show (m ((c : Thread nD τ).loc main_arg0) : S32x8192.Idx → Elt Ideal .f32) _ = _
  refine congrArg (m ((c : Thread nD τ).loc main_arg0) : S32x8192.Idx → Elt Ideal .f32) (funext fun a => Fin.ext ?_)
  match a with
  | ⟨0, _⟩ => show win0_0.index t (0 : Fin 2) * 32 + 1 * p.val = p.val; rw [e0]; omega
  | ⟨1, _⟩ => show win0_0.index t (1 : Fin 2) * 8192 + 1 * k.val = k.val; rw [e1]; omega

/-- Read through the second window's block at point `t`, ANY 8192 × 8192 array gives, at row `q` of the block, its row
    `256 t + q`. (Stated for an arbitrary array so that the weight matrix stays a name.) -/
theorem strip_of (A : S8192x8192.Idx → Elt Ideal .f32) (t : Fin cfg0.N) (q : Fin 256) (k : Fin 8192) (o : Fin 8192)
    (ho : o.val = t.val * 256 + q.val) :
    (((cfg0.win 1).blk t).view.read (Elt Ideal) A : FVec Ideal S256x8192 .f32) (ix2 q k) = A (ix2 o k) := by
  obtain ⟨-, -, e2, e3, -⟩ := block_of_point t
  rw [View.read_apply]
  refine congrArg A (funext fun a => Fin.ext ?_)
  match a with
  | ⟨0, _⟩ => show win0_1.index t (0 : Fin 2) * 256 + 1 * q.val = o.val; rw [e2, ho]; omega
  | ⟨1, _⟩ => show win0_1.index t (1 : Fin 2) * 8192 + 1 * k.val = k.val; rw [e3]; omega

attribute [local irreducible] Cert.KernelIdeal.Entry.weight in
/-- Row `q` of the weight strip at point `t` is row `256 t + q` of the weight matrix. -/
theorem strip_at (c : Dev nD) (t : Fin cfg0.N) (q : Fin 256) (k : Fin 8192) (o : Fin 8192) (ho : o.val = t.val * 256 + q.val) :
    (iblk m c 1 t : FVec Ideal S256x8192 .f32) (ix2 q k)
      = Entry.weight (F := Ideal) (m ((c : Thread nD τ).loc main_arg1)) (m ((c : Thread nD τ).loc main_arg2)) (ix2 o k) := by
  have hw : (V m c (Pipeline.arrRef spec0 (1 : Fin 4)) : S8192x8192.Idx → Elt Ideal .f32)
      = Entry.weight (F := Ideal) (m ((c : Thread nD τ).loc main_arg1)) (m ((c : Thread nD τ).loc main_arg2)) :=
    Entry.finds_weight m c
  unfold iblk
  rw [hw]
  exact strip_of _ t q k o ho

/-- Entry `q` of the bias block at point `t` is entry `256 t + q` of the bias argument. -/
theorem bias_at (c : Dev nD) (t : Fin cfg0.N) (q : Fin 256) (o : Fin 8192) (ho : o.val = t.val * 256 + q.val) :
    (iblk m c 2 t : FVec Ideal S1x256 .f32) (ix2 (0 : Fin 1) q)
      = (m ((c : Thread nD τ).loc main_arg3) : S8192.Idx → Elt Ideal .f32) (ix1 o) := by
  obtain ⟨-, -, -, -, e4, e5, -⟩ := block_of_point t
  unfold iblk
  rw [View.read_apply]
  show (V m c main_v20 : S1x8192.Idx → Elt Ideal .f32) _ = _
  rw [Entry.finds_bias]
  refine (shapeCast_apply _ shapeCasts_S8192_S1x8192 _ (ix1 o) ?_)
  rw [Shape.rowMajor_val_two, Shape.rowMajor_val_one]
  show o.val = (win0_2.index t (0 : Fin 2) * 1 + 1 * 0) * 8192 + (win0_2.index t (1 : Fin 2) * 256 + 1 * q.val)
  rw [e4, e5, ho]; omega

/-- The layer of the program's arguments: activations, the scattered weight matrix, bias. -/
abbrev result (c : Dev nD) : S32x8192.Idx → Elt Ideal .f32 :=
  Cert.DenseLayer.affine (m ((c : Thread nD τ).loc main_arg0))
    (Entry.weight (F := Ideal) (m ((c : Thread nD τ).loc main_arg1)) (m ((c : Thread nD τ).loc main_arg2)))
    (m ((c : Thread nD τ).loc main_arg3))

/-- Read through the result window's block at point `t`, ANY 32 × 8192 array gives, at `(p, q)` of the block, its
    entry `(p, 256 t + q)`. (Stated for an arbitrary array so that the layer's output stays a name.) -/
theorem column_block_of (G : S32x8192.Idx → Elt Ideal .f32) (t : Fin cfg0.N) (y : S32x256.Idx) (p : Fin 32) (o : Fin 8192)
    (hp : p.val = (y 0).val) (ho : o.val = t.val * 256 + (y 1).val) :
    (((cfg0.win 3).blk t).view.read (Elt Ideal) G : FVec Ideal S32x256 .f32) y = G (ix2 p o) := by
  obtain ⟨-, -, -, -, -, -, e6, e7⟩ := block_of_point t
  rw [View.read_apply]
  refine congrArg G (funext fun a => Fin.ext ?_)
  match a with
  | ⟨0, _⟩ => show win0_3.index t (0 : Fin 2) * 32 + 1 * (y 0).val = p.val; rw [e6, hp]; omega
  | ⟨1, _⟩ => show win0_3.index t (1 : Fin 2) * 256 + 1 * (y 1).val = o.val; rw [e7, ho]; omega

attribute [local irreducible] Cert.KernelIdeal.Entry.weight Cert.DenseLayer.affine Cert.DenseLayer.entry
  Cert.KernelIdeal.Gen.k0_pay1 in
/-- WHAT POINT `t` WRITES BACK is block `t` of the layer's output. -/
theorem flushed_eq (c : Dev nD) (t : Fin cfg0.N) :
    (dats m 0 c).flushed 3 t = ((cfg0.win 3).blk t).view.read (Elt Ideal) (result m c) := by
  have hN : cfg0.N = 32 := N_0
  have ht : t.val < 32 := hN ▸ t.isLt
  rw [flushed3]
  unfold out0_3
  rw [View.canon_unit_zero hz]
  simp only [View.ld_unit_zero (S := S32x8192) hz, View.ld_unit_zero (S := S256x8192) hz, View.ld_unit_zero (S := S1x256) hz]
  funext y
  have hp : (y 0).val < 32 := (y 0).isLt
  have hq : (y 1).val < 256 := (y 1).isLt
  have ho : t.val * 256 + (y 1).val < 8192 := by omega
  refine Eq.trans ?_ (column_block_of
    (Cert.DenseLayer.affine (m ((c : Thread nD τ).loc main_arg0))
      (Entry.weight (F := Ideal) (m ((c : Thread nD τ).loc main_arg1)) (m ((c : Thread nD τ).loc main_arg2)))
      (m ((c : Thread nD τ).loc main_arg3)))
    t y ⟨(y 0).val, hp⟩ ⟨t.val * 256 + (y 1).val, ho⟩ rfl rfl).symm
  show k0_pay1 (F := Ideal) (iblk m c 0 t) (iblk m c 1 t) (iblk m c 2 t) ((cfg0.win 3).xinj (grid0.coords t) y) = _
  refine (Strip.stored_of_coords (iblk m c 0 t) (iblk m c 1 t) (iblk m c 2 t) ((cfg0.win 3).xinj (grid0.coords t) y)
    ⟨(y 0).val, hp⟩ ⟨(y 1).val, hq⟩ rfl rfl).trans ?_
  rw [Cert.DenseLayer.affine_ix2, Cert.DenseLayer.entry_def,
    bias_at m c t ⟨(y 1).val, hq⟩ ⟨t.val * 256 + (y 1).val, ho⟩ rfl]
  refine congrArg (· + _) (Finset.sum_congr rfl fun k _ => ?_)
  rw [activations_at m c t ⟨(y 0).val, hp⟩ k, strip_at m c t ⟨(y 1).val, hq⟩ k ⟨t.val * 256 + (y 1).val, ho⟩ rfl]

/-- An index of the result is in point `t`'s block iff each coordinate is in the block's range on its axis. -/
theorem mem_block (t : Fin cfg0.N) (i : S32x8192.Idx) :
    i ∈ ((cfg0.win 3).blk t).view.set ↔ ∀ a : Fin 2, win0_3.index t a * S32x256.size a ≤ (i a).val ∧ (i a).val < win0_3.index t a * S32x256.size a + S32x256.size a := by
  show i ∈ ((View.whole main_v21).slice (win0_3.rect t)).set ↔ _
  rw [View.set_slice_whole, Rect.mem_set_unit]
  exact Iff.rfl

/-- Every index of the result is in some point's block: column `j` is written by point `j / 256`. -/
theorem covered (i : S32x8192.Idx) : ∃ t : Fin cfg0.N, (cfg0.win 3).flush t = true ∧ i ∈ ((cfg0.win 3).blk t).view.set := by
  have h0 : (i 0).val < 32 := (i 0).isLt
  have h1 : (i 1).val < 8192 := (i 1).isLt
  have hN : cfg0.N = 32 := N_0
  obtain ⟨t, ht⟩ : ∃ t : Fin cfg0.N, t.val = (i 1).val / 256 := ⟨⟨(i 1).val / 256, by rw [hN]; omega⟩, rfl⟩
  obtain ⟨-, -, -, -, -, -, e6, e7⟩ := block_of_point t
  refine ⟨t, flush0_3 t, ?_⟩
  rw [mem_block]
  intro a
  match a with
  | ⟨0, _⟩ => show win0_3.index t (0 : Fin 2) * 32 ≤ (i 0).val ∧ (i 0).val < win0_3.index t (0 : Fin 2) * 32 + 32; rw [e6]; omega
  | ⟨1, _⟩ => show win0_3.index t (1 : Fin 2) * 256 ≤ (i 1).val ∧ (i 1).val < win0_3.index t (1 : Fin 2) * 256 + 256; rw [e7, ht]; omega

/-- So the result array ends holding the layer's output. -/
theorem final (c : Dev nD) : (dats m 0 c).arrAt 3 cfg0.N = result m c :=
  (dats m 0 c).arrAt_eq_of_cover 3 (result m c) (fun t _ => flushed_eq m c t) covered

/-- The kernel's run, read: every weakly fair execution terminates with the result array at the dense layer of the
    arguments and the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Layer

end
-- ==== Proof.ReferenceLayer.lean ====
/-
  The reference's result is the dense layer of its weight matrix.

  The reference contracts the activations with the weight matrix over the last axis of both (one `dot_general`),
  broadcasts the bias over the batch rows and adds: at `(p, q)` that is `(∑ k, x[p, k] · w[q, k]) + b[q]`, the
  layer's entry, with `w` whatever matrix its scatter built.
-/
import proofs.«177614_j17789754540032_2_alg».proof.Proof.Gen.ReferenceIdeal.Read
import proofs.«177614_j17789754540032_2_alg».proof.Proof.DenseLayer

noncomputable section

open scoped BigOperators

namespace Cert.ReferenceIdeal.Layer

open Cert.ReferenceIdeal Cert.ReferenceIdeal.Read Idealize.ShloMosaic Idealize.ShloMosaic.ValueIdx

/-- The reference's result array, as a function of its four arguments, is the dense layer applied to the
    activations, the scattered weight matrix and the bias. -/
theorem result_is_affine (x : (⟨S32x8192, .f32⟩ : BufTy).Contents (Elt Ideal)) (vals : (⟨S33554432, .f32⟩ : BufTy).Contents (Elt Ideal))
    (idx : (⟨S2x33554432, .i32⟩ : BufTy).Contents (Elt Ideal)) (b : (⟨S8192, .f32⟩ : BufTy).Contents (Elt Ideal)) :
    val_main_v22 (F := Ideal) x vals idx b = Cert.DenseLayer.affine x (val_main_v18 (F := Ideal) vals idx) b := by
  funext i
  obtain ⟨p, q, rfl⟩ : ∃ (p : Fin 32) (q : Fin 8192), i = ix2 p q := ⟨i 0, i 1, eq_ix2 i⟩
  rw [val_main_v22_apply, val_main_v19_apply, val_main_v21_apply, val_main_v20_apply, Cert.DenseLayer.affine_ix2]
  have hl : ∀ k : Fin 8192, lidx_main_v19 (ix2 p q) k = ix2 p k := fun k =>
    funext fun a => Fin.ext (by match a with | ⟨0, _⟩ => rfl | ⟨1, _⟩ => rfl)
  have hr : ∀ k : Fin 8192, ridx_main_v19 (ix2 p q) k = ix2 q k := fun k =>
    funext fun a => Fin.ext (by match a with | ⟨0, _⟩ => rfl | ⟨1, _⟩ => rfl)
  have hb : idx_main_v20 (idx_main_v21 (ix2 p q)) = ix1 q :=
    funext fun a => Fin.ext (by match a with | ⟨0, _⟩ => rfl)
  simp only [hl, hr, hb]
  rfl

end Cert.ReferenceIdeal.Layer

end
-- ==== Proof.SameWeight.lean ====
/-
  The two programs rebuild the weight matrix by the same operations on the same arguments: the index array's two
  rows cut out and flattened, negative numbers counted from the end, the pairs laid side by side, the values added
  at their positions into zeros. Operation for operation the reference's matrix is the kernel's, so the two are one
  function of the values and the index array; the scatter itself is never opened.
-/
import proofs.«177614_j17789754540032_2_alg».proof.Proof.Gen.ReferenceIdeal.Read
import proofs.«177614_j17789754540032_2_alg».proof.Proof.RegionEntry

noncomputable section

namespace Cert.SameWeight

open Idealize.ShloMosaic

/-- The reference's weight matrix is the kernel's, as functions of the sparse values and the index array. -/
theorem weight_eq (vals : (⟨Cert.KernelIdeal.S33554432, .f32⟩ : BufTy).Contents (Elt Ideal))
    (idx : (⟨Cert.KernelIdeal.S2x33554432, .i32⟩ : BufTy).Contents (Elt Ideal)) :
    Cert.ReferenceIdeal.Read.val_main_v18 (F := Ideal) vals idx = Cert.KernelIdeal.Entry.weight (F := Ideal) vals idx := rfl

end Cert.SameWeight

end
-- ==== Proof.lean ====
/-
  The certificate: a kernel that multiplies a batch of 32 activation rows by a dense 8192 × 8192 weight matrix, strip
  of 256 output features by strip, and adds a bias, against the one-line reference `x · wᵀ + b`. Both programs first
  rebuild the weight matrix from its sparse entries by the same scatter.

  Over the extended reals both results are the dense layer `out[p, q] = (∑ k, x[p, k] · w[q, k]) + b[q]` of the same
  three arrays: the kernel's change of float format on the way into the matrix unit is the identity, its zero
  accumulator is the real zero, its 32 column blocks tile the result and each holds the layer's entries for its
  columns; the reference's `dot_general` is the same sum and its broadcast bias the same addend. No algebraic law is
  needed beyond `0 + s = s`, so the precondition (finite inputs) is never opened. The idealization rewrote nothing, so
  `preserves` is trivial; the three frames are the generated frame runs.
-/
import proofs.«177614_j17789754540032_2_alg».proof.Defs
import proofs.«177614_j17789754540032_2_alg».proof.Proof.Gen.Kernel
import proofs.«177614_j17789754540032_2_alg».proof.Proof.Gen.Kernel.Skeleton
import proofs.«177614_j17789754540032_2_alg».proof.Proof.Gen.Kernel.Launch
import proofs.«177614_j17789754540032_2_alg».proof.Proof.Gen.Kernel.Points
import proofs.«177614_j17789754540032_2_alg».proof.Proof.Gen.Kernel.Frame
import proofs.«177614_j17789754540032_2_alg».proof.Proof.Gen.KernelIdeal
import proofs.«177614_j17789754540032_2_alg».proof.Proof.Gen.KernelIdeal.Skeleton
import proofs.«177614_j17789754540032_2_alg».proof.Proof.Gen.KernelIdeal.Launch
import proofs.«177614_j17789754540032_2_alg».proof.Proof.Gen.KernelIdeal.Points
import proofs.«177614_j17789754540032_2_alg».proof.Proof.Gen.KernelIdeal.Frame
import proofs.«177614_j17789754540032_2_alg».proof.Proof.Gen.ReferenceIdeal
import proofs.«177614_j17789754540032_2_alg».proof.Proof.Gen.Pre_finite_inputs
import proofs.«177614_j17789754540032_2_alg».proof.Proof.Gen.KernelIdeal.Value
import proofs.«177614_j17789754540032_2_alg».proof.Proof.Gen.ReferenceIdeal.Run
import proofs.«177614_j17789754540032_2_alg».proof.Proof.Gen.ReferenceIdeal.Read
import proofs.«177614_j17789754540032_2_alg».proof.Proof.KernelLayer
import proofs.«177614_j17789754540032_2_alg».proof.Proof.ReferenceLayer
import proofs.«177614_j17789754540032_2_alg».proof.Proof.SameWeight
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the dense layer of the activations, the
    scattered weight matrix and the bias in their result arrays: the kernel block by block, the reference as its
    `dot_general` plus the broadcast bias, the two weight matrices one function of the sparse entries. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.Layer.result_is_affine, Cert.SameWeight.weight_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
